-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x512x512 : Shape := ⟨4, ![32, 1, 512, 512]⟩
abbrev S_ : Shape := ⟨0, ![]⟩

class Facts : Prop where
  bcast_S_S32x1x512x512 : S_.BroadcastsInDim S32x1x512x512 (![] : Fin 0 → Fin S32x1x512x512.rank)
  reducesTo_S32x1x512x512_S_d0_1_2_3 : S32x1x512x512.ReducesTo [0, 1, 2, 3] S_
  h_S_ : 0 < S_.numel

variable [Facts]

def fn {F : FTy → Type} [FloatOps F] (main_arg0 : FVec F S32x1x512x512 .f32) (main_arg1 : FVec F S32x1x512x512 .f32) : IVec S_ 1 :=
  let main_v0 : FVec F S32x1x512x512 .f32 := Host.absf main_arg0
  let main_cst : FVec F S_ .f32 := constant S_ .f32 0x7F800000#32
  let main_v1 : FVec F S32x1x512x512 .f32 := broadcastInDim S32x1x512x512 ![] bcast_S_S32x1x512x512 main_cst
  let main_v2 : IVec S32x1x512x512 1 := cmpf .olt main_v0 main_v1
  let main_c : IVec S_ 1 := constantI S_ 1 1#1
  let main_v3 : IVec S_ 1 := (fun x v => Host.reduce IntOp.andi x v reducesTo_S32x1x512x512_S_d0_1_2_3 h_S_) main_v2 main_c
  let main_v4 : FVec F S32x1x512x512 .f32 := Host.absf main_arg1
  let main_cst_0 : FVec F S_ .f32 := constant S_ .f32 0x7F800000#32
  let main_v5 : FVec F S32x1x512x512 .f32 := broadcastInDim S32x1x512x512 ![] bcast_S_S32x1x512x512 main_cst_0
  let main_v6 : IVec S32x1x512x512 1 := cmpf .olt main_v4 main_v5
  let main_c_1 : IVec S_ 1 := constantI S_ 1 1#1
  let main_v7 : IVec S_ 1 := (fun x v => Host.reduce IntOp.andi x v reducesTo_S32x1x512x512_S_d0_1_2_3 h_S_) main_v6 main_c_1
  let main_v8 : IVec S_ 1 := andi main_v3 main_v7
  main_v8
-- ==== Kernel.lean ====
abbrev S32x1x512x512 : Shape := ⟨4, ![32, 1, 512, 512]⟩
abbrev S16384x512 : Shape := ⟨2, ![16384, 512]⟩
abbrev S16x128 : Shape := ⟨2, ![16, 128]⟩
abbrev S1024x512 : Shape := ⟨2, ![1024, 512]⟩
abbrev S8x128 : Shape := ⟨2, ![8, 128]⟩
abbrev S1x1 : Shape := ⟨2, ![1, 1]⟩
abbrev S1024 : Shape := ⟨1, ![1024]⟩
abbrev S1024x1 : Shape := ⟨2, ![1024, 1]⟩
abbrev S1 : Shape := ⟨1, ![1]⟩
abbrev S1x125 : Shape := ⟨2, ![1, 125]⟩
abbrev S1x128 : Shape := ⟨2, ![1, 128]⟩
abbrev S7x128 : Shape := ⟨2, ![7, 128]⟩
abbrev S_ : Shape := ⟨0, ![]⟩

abbrev nBuf : Space → Nat
  | .hbm => 30
  | .vmem => 9
  | .smem => 0
  | _ => 0

abbrev bufTy : (tb : Table) → Fin (tcTables nBuf tb) → BufTy
  | .hbm, ⟨0, _⟩ => ⟨S32x1x512x512, .f32⟩
  | .hbm, ⟨1, _⟩ => ⟨S32x1x512x512, .f32⟩
  | .hbm, ⟨2, _⟩ => ⟨S16384x512, .f32⟩
  | .hbm, ⟨3, _⟩ => ⟨S16384x512, .f32⟩
  | .hbm, ⟨4, _⟩ => ⟨S16x128, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S1x1, .f32⟩
  | .hbm, ⟨16, _⟩ => ⟨S_, .f32⟩
  | .hbm, ⟨17, _⟩ => ⟨S1x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S8x128, .f32⟩
  | .local _ .vmem, ⟨5, _⟩ => ⟨S8x128, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | _, _ => ⟨S32x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v44 : BitVec 1 := Scalar.cmpi .eq arg1 c7_i32
  let v45 : BitVec 32 := Scalar.extui v44
  let c0_i32_22 : BitVec 32 := 0#32
  let v46 : BitVec 1 := Scalar.cmpi .ne v45 c0_i32_22
  v46

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S32x1x512x512_S16384x512 : S32x1x512x512.ShapeCasts S16384x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  natLt_1_32 : 1 < 32
  reduces_S1024x512_S1024 : S1024x512.Reduces [1] S1024
  shapeCasts_S1024_S1024x1 : S1024.ShapeCasts S1024x1
  reduces_S1024x1_S1 : S1024x1.Reduces [0] S1
  shapeCasts_S1_S1x1 : S1.ShapeCasts S1x1
  concatenates_S1x1_S1x1_S1x1_S1x125_S1x128_d1 : Shape.Concatenates [S1x1, S1x1, S1x1, S1x125] S1x128 1
  concatenates_S1x128_S7x128_S8x128_d0 : Shape.Concatenates [S1x128, S7x128] S8x128 0
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  slices_S16x128_S1x1_0_1 : S16x128.Slices ![0, 1] S1x1
  slices_S16x128_S1x1_8_1 : S16x128.Slices ![8, 1] S1x1
  slices_S16x128_S1x1_0_2 : S16x128.Slices ![0, 2] S1x1
  slices_S16x128_S1x1_8_2 : S16x128.Slices ![8, 2] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x1x512x512 : Shape := ⟨4, ![32, 1, 512, 512]⟩
abbrev S8388608 : Shape := ⟨1, ![8388608]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S32x1x512x512, .f32⟩
  | .hbm, ⟨1, _⟩ => ⟨S32x1x512x512, .f32⟩
  | .hbm, ⟨2, _⟩ => ⟨S8388608, .f32⟩
  | .hbm, ⟨3, _⟩ => ⟨S8388608, .f32⟩
  | .hbm, ⟨4, _⟩ => ⟨S_, .f32⟩
  | .hbm, ⟨5, _⟩ => ⟨S8388608, .f32⟩
  | .hbm, ⟨6, _⟩ => ⟨S8388608, .i1⟩
  | .hbm, ⟨7, _⟩ => ⟨S8388608, .f32⟩
  | .hbm, ⟨8, _⟩ => ⟨S8388608, .f32⟩
  | .hbm, ⟨9, _⟩ => ⟨S8388608, .f32⟩
  | .hbm, ⟨10, _⟩ => ⟨S8388608, .f32⟩
  | .hbm, ⟨11, _⟩ => ⟨S_, .f32⟩
  | .hbm, ⟨12, _⟩ => ⟨S_, .f32⟩
  | .hbm, ⟨13, _⟩ => ⟨S8388608, .f32⟩
  | .hbm, ⟨14, _⟩ => ⟨S_, .f32⟩
  | .hbm, ⟨15, _⟩ => ⟨S_, .f32⟩
  | .hbm, ⟨16, _⟩ => ⟨S8388608, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S32x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  shapeCasts_S32x1x512x512_S8388608 : S32x1x512x512.ShapeCasts S8388608
  bcast_S_S8388608 : S_.BroadcastsInDim S8388608 (![] : Fin 0 → Fin S8388608.rank)
  reducesTo_S8388608_S_d0 : S8388608.ReducesTo [0] S_
  h_S_ : 0 < S_.numel

variable [Facts₀]

class Facts : Prop extends Facts₀ where

variable [Facts]
-- ==== Proof.BodyCases.lean ====
/-
  What one run of the kernel body leaves behind, case by case, as values.

  The body keeps three 1×1 accumulators (for the masked sums of pred·target, pred·pred and target·target).
  At a grid point it (first point of a core's row range only) zeroes them, then adds to each the block's
  masked sum, and (last point of a core's row range only) packs the three running values into lanes 0, 1, 2
  of row 0 of an otherwise zero 8×128 block. Each accumulator is stored whole, so what it holds afterwards
  is the last store's value; a load of an accumulator after a store of it reads that store's value.

  Three cases occur on the 2×8 grid: A (first point of a run: reset, then add), B (a middle point: add),
  C (last point of a run: add, then pack). For each case and each accumulator the value left is
  `step (block of pred) (block of target) (value before)`, with the zero block as the value before in case A;
  and in case C the output block is the packing of the three values just left.
-/
import proofs.«174891_j81956565942483_2_alg».proof.Proof.Gen.KernelIdeal.Frame
import Idealize.ShloMosaic.Lib.Pipeline.Value
import Idealize.ShloMosaic.Lib.Tactic

set_option maxRecDepth 16384

noncomputable section

namespace Cert.KernelIdeal.Body

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

/-- One point's update of an accumulator: the masked sum of pred·target over the block, added to the running value. -/
def stepII (x0 x1 : Vec F S1024x512 .f32) (acc : Vec F S1x1 .f32) : Vec F S1x1 .f32 := k0_pay11 x0 x1 acc

/-- One point's update of an accumulator: the masked sum of pred·pred over the block, added to the running value. -/
def stepAA (x0 x1 : Vec F S1024x512 .f32) (acc : Vec F S1x1 .f32) : Vec F S1x1 .f32 := k0_pay1 (k0_pay12 x0 x1 acc)

/-- One point's update of an accumulator: the masked sum of target·target over the block, added to the running value. -/
def stepBB (x0 x1 : Vec F S1024x512 .f32) (acc : Vec F S1x1 .f32) : Vec F S1x1 .f32 := k0_pay2 (k0_pay10 x1) acc

/-- The packing of three 1×1 values into lanes 0, 1, 2 of row 0 of a zero 8×128 block. -/
def pack (u v w : Vec F S1x1 .f32) : Vec F S8x128 .f32 := k0_pay3 u v w

/-- Case B, accumulator 0: one store, of the update of the value the point before left. -/
theorem left_B_0 (c : Dev nD) (i : grid0.Coords) (a2 : Memref sig .tc .vmem S1024x512 .f32) (h2 : a2.IsWhole) (a3 : Memref sig .tc .vmem S1024x512 .f32) (h3 : a3.IsWhole)
    (a4 : Memref sig .tc .vmem S8x128 .f32) (h4 : a4.IsWhole) (a5 : Memref sig .tc .vmem S1x1 .f32) (h5 : a5.IsWhole) (a6 : Memref sig .tc .vmem S1x1 .f32) (h6 : a6.IsWhole)
    (a7 : Memref sig .tc .vmem S1x1 .f32) (h7 : a7.IsWhole) (hc0 : ¬cond0_0 i) (hc1 : ¬cond0_1 i)
    (x0 x1 : Vec F S1024x512 .f32) (xs0 xs1 xs2 : Vec F S1x1 .f32) :
    sout0_B_0 c i a2 h2 a3 h3 a4 h4 a5 h5 a6 h6 a7 h7 hc0 hc1 x0 x1 xs0 xs1 xs2 = stepII x0 x1 xs0 := by
  unfold sout0_B_0
  rw [View.read_writes_eq_canon _ _ _ (scover0_B_0 c i a2 h2 a3 h3 a4 h4 a5 h5 a6 h6 a7 h7 hc0 hc1 x0 x1 xs0 xs1 xs2)]
  unfold kernelRun0_B
  dsimp only
  sl_unfold_words
  rw [View.canon_unit_zero hz]
  unfold stepII
  simp only [View.readAt_eq_ld, h2.read_unread, h3.read_unread, h5.read_unread, h6.read_unread, h7.read_unread,
    View.ld_unit_zero (S := S1024x512) hz, View.ld_unit_zero (S := S1x1) hz]

/-- Case B, accumulator 1: one store, of the update of the value the point before left. -/
theorem left_B_1 (c : Dev nD) (i : grid0.Coords) (a2 : Memref sig .tc .vmem S1024x512 .f32) (h2 : a2.IsWhole) (a3 : Memref sig .tc .vmem S1024x512 .f32) (h3 : a3.IsWhole)
    (a4 : Memref sig .tc .vmem S8x128 .f32) (h4 : a4.IsWhole) (a5 : Memref sig .tc .vmem S1x1 .f32) (h5 : a5.IsWhole) (a6 : Memref sig .tc .vmem S1x1 .f32) (h6 : a6.IsWhole)
    (a7 : Memref sig .tc .vmem S1x1 .f32) (h7 : a7.IsWhole) (hc0 : ¬cond0_0 i) (hc1 : ¬cond0_1 i)
    (x0 x1 : Vec F S1024x512 .f32) (xs0 xs1 xs2 : Vec F S1x1 .f32) :
    sout0_B_1 c i a2 h2 a3 h3 a4 h4 a5 h5 a6 h6 a7 h7 hc0 hc1 x0 x1 xs0 xs1 xs2 = stepAA x0 x1 xs1 := by
  unfold sout0_B_1
  rw [View.read_writes_eq_canon _ _ _ (scover0_B_1 c i a2 h2 a3 h3 a4 h4 a5 h5 a6 h6 a7 h7 hc0 hc1 x0 x1 xs0 xs1 xs2)]
  unfold kernelRun0_B
  dsimp only
  sl_unfold_words
  rw [View.canon_unit_zero hz]
  unfold stepAA
  simp only [View.readAt_eq_ld, h2.read_unread, h3.read_unread, h5.read_unread, h6.read_unread, h7.read_unread,
    View.ld_unit_zero (S := S1024x512) hz, View.ld_unit_zero (S := S1x1) hz]

/-- Case B, accumulator 2: one store, of the update of the value the point before left. -/
theorem left_B_2 (c : Dev nD) (i : grid0.Coords) (a2 : Memref sig .tc .vmem S1024x512 .f32) (h2 : a2.IsWhole) (a3 : Memref sig .tc .vmem S1024x512 .f32) (h3 : a3.IsWhole)
    (a4 : Memref sig .tc .vmem S8x128 .f32) (h4 : a4.IsWhole) (a5 : Memref sig .tc .vmem S1x1 .f32) (h5 : a5.IsWhole) (a6 : Memref sig .tc .vmem S1x1 .f32) (h6 : a6.IsWhole)
    (a7 : Memref sig .tc .vmem S1x1 .f32) (h7 : a7.IsWhole) (hc0 : ¬cond0_0 i) (hc1 : ¬cond0_1 i)
    (x0 x1 : Vec F S1024x512 .f32) (xs0 xs1 xs2 : Vec F S1x1 .f32) :
    sout0_B_2 c i a2 h2 a3 h3 a4 h4 a5 h5 a6 h6 a7 h7 hc0 hc1 x0 x1 xs0 xs1 xs2 = stepBB x0 x1 xs2 := by
  unfold sout0_B_2
  rw [View.read_writes_eq_canon _ _ _ (scover0_B_2 c i a2 h2 a3 h3 a4 h4 a5 h5 a6 h6 a7 h7 hc0 hc1 x0 x1 xs0 xs1 xs2)]
  unfold kernelRun0_B
  dsimp only
  sl_unfold_words
  rw [View.canon_unit_zero hz]
  unfold stepBB
  simp only [View.readAt_eq_ld, h2.read_unread, h3.read_unread, h5.read_unread, h6.read_unread, h7.read_unread,
    View.ld_unit_zero (S := S1024x512) hz, View.ld_unit_zero (S := S1x1) hz]

/-- Case C, accumulator 0: one store, of the update of the value the point before left. -/
theorem left_C_0 (c : Dev nD) (i : grid0.Coords) (a2 : Memref sig .tc .vmem S1024x512 .f32) (h2 : a2.IsWhole) (a3 : Memref sig .tc .vmem S1024x512 .f32) (h3 : a3.IsWhole)
    (a4 : Memref sig .tc .vmem S8x128 .f32) (h4 : a4.IsWhole) (a5 : Memref sig .tc .vmem S1x1 .f32) (h5 : a5.IsWhole) (a6 : Memref sig .tc .vmem S1x1 .f32) (h6 : a6.IsWhole)
    (a7 : Memref sig .tc .vmem S1x1 .f32) (h7 : a7.IsWhole) (hc0 : ¬cond0_0 i) (hc1 : cond0_1 i)
    (x0 x1 : Vec F S1024x512 .f32) (xs0 xs1 xs2 : Vec F S1x1 .f32) :
    sout0_C_0 c i a2 h2 a3 h3 a4 h4 a5 h5 a6 h6 a7 h7 hc0 hc1 x0 x1 xs0 xs1 xs2 = stepII x0 x1 xs0 := by
  unfold sout0_C_0
  rw [View.read_writes_eq_canon _ _ _ (scover0_C_0 c i a2 h2 a3 h3 a4 h4 a5 h5 a6 h6 a7 h7 hc0 hc1 x0 x1 xs0 xs1 xs2)]
  unfold kernelRun0_C
  dsimp only
  sl_unfold_words
  rw [View.canon_unit_zero hz]
  unfold stepII
  simp only [View.readAt_eq_ld, h2.read_unread, h3.read_unread, h5.read_unread, h6.read_unread, h7.read_unread,
    View.ld_unit_zero (S := S1024x512) hz, View.ld_unit_zero (S := S1x1) hz]

/-- Case C, accumulator 1: one store, of the update of the value the point before left. -/
theorem left_C_1 (c : Dev nD) (i : grid0.Coords) (a2 : Memref sig .tc .vmem S1024x512 .f32) (h2 : a2.IsWhole) (a3 : Memref sig .tc .vmem S1024x512 .f32) (h3 : a3.IsWhole)
    (a4 : Memref sig .tc .vmem S8x128 .f32) (h4 : a4.IsWhole) (a5 : Memref sig .tc .vmem S1x1 .f32) (h5 : a5.IsWhole) (a6 : Memref sig .tc .vmem S1x1 .f32) (h6 : a6.IsWhole)
    (a7 : Memref sig .tc .vmem S1x1 .f32) (h7 : a7.IsWhole) (hc0 : ¬cond0_0 i) (hc1 : cond0_1 i)
    (x0 x1 : Vec F S1024x512 .f32) (xs0 xs1 xs2 : Vec F S1x1 .f32) :
    sout0_C_1 c i a2 h2 a3 h3 a4 h4 a5 h5 a6 h6 a7 h7 hc0 hc1 x0 x1 xs0 xs1 xs2 = stepAA x0 x1 xs1 := by
  unfold sout0_C_1
  rw [View.read_writes_eq_canon _ _ _ (scover0_C_1 c i a2 h2 a3 h3 a4 h4 a5 h5 a6 h6 a7 h7 hc0 hc1 x0 x1 xs0 xs1 xs2)]
  unfold kernelRun0_C
  dsimp only
  sl_unfold_words
  rw [View.canon_unit_zero hz]
  unfold stepAA
  simp only [View.readAt_eq_ld, h2.read_unread, h3.read_unread, h5.read_unread, h6.read_unread, h7.read_unread,
    View.ld_unit_zero (S := S1024x512) hz, View.ld_unit_zero (S := S1x1) hz]

/-- Case C, accumulator 2: one store, of the update of the value the point before left. -/
theorem left_C_2 (c : Dev nD) (i : grid0.Coords) (a2 : Memref sig .tc .vmem S1024x512 .f32) (h2 : a2.IsWhole) (a3 : Memref sig .tc .vmem S1024x512 .f32) (h3 : a3.IsWhole)
    (a4 : Memref sig .tc .vmem S8x128 .f32) (h4 : a4.IsWhole) (a5 : Memref sig .tc .vmem S1x1 .f32) (h5 : a5.IsWhole) (a6 : Memref sig .tc .vmem S1x1 .f32) (h6 : a6.IsWhole)
    (a7 : Memref sig .tc .vmem S1x1 .f32) (h7 : a7.IsWhole) (hc0 : ¬cond0_0 i) (hc1 : cond0_1 i)
    (x0 x1 : Vec F S1024x512 .f32) (xs0 xs1 xs2 : Vec F S1x1 .f32) :
    sout0_C_2 c i a2 h2 a3 h3 a4 h4 a5 h5 a6 h6 a7 h7 hc0 hc1 x0 x1 xs0 xs1 xs2 = stepBB x0 x1 xs2 := by
  unfold sout0_C_2
  rw [View.read_writes_eq_canon _ _ _ (scover0_C_2 c i a2 h2 a3 h3 a4 h4 a5 h5 a6 h6 a7 h7 hc0 hc1 x0 x1 xs0 xs1 xs2)]
  unfold kernelRun0_C
  dsimp only
  sl_unfold_words
  rw [View.canon_unit_zero hz]
  unfold stepBB
  simp only [View.readAt_eq_ld, h2.read_unread, h3.read_unread, h5.read_unread, h6.read_unread, h7.read_unread,
    View.ld_unit_zero (S := S1024x512) hz, View.ld_unit_zero (S := S1x1) hz]

/-- Case A, accumulator 0: the reset's store of the zero block, read back, then the store of its update. -/
theorem left_A_0 (c : Dev nD) (i : grid0.Coords) (a2 : Memref sig .tc .vmem S1024x512 .f32) (h2 : a2.IsWhole) (a3 : Memref sig .tc .vmem S1024x512 .f32) (h3 : a3.IsWhole)
    (a4 : Memref sig .tc .vmem S8x128 .f32) (h4 : a4.IsWhole) (a5 : Memref sig .tc .vmem S1x1 .f32) (h5 : a5.IsWhole) (a6 : Memref sig .tc .vmem S1x1 .f32) (h6 : a6.IsWhole)
    (a7 : Memref sig .tc .vmem S1x1 .f32) (h7 : a7.IsWhole) (hc0 : cond0_0 i) (hc1 : ¬cond0_1 i)
    (x0 x1 : Vec F S1024x512 .f32) :
    sout0_A_0 c i a2 h2 a3 h3 a4 h4 a5 h5 a6 h6 a7 h7 hc0 hc1 x0 x1 = stepII x0 x1 k0_pay4 := by
  unfold sout0_A_0
  rw [View.read_writes_eq_canon _ _ _ (scover0_A_0 c i a2 h2 a3 h3 a4 h4 a5 h5 a6 h6 a7 h7 hc0 hc1 x0 x1)]
  unfold kernelRun0_A
  dsimp only
  sl_unfold_words
  rw [View.canon_cons_unit_zero (S := S1x1) hz, View.readCov_unit_zero (S := S1x1) _ hz]
  unfold stepII
  simp only [View.readAt_eq_ld, h2.read_unread, h3.read_unread, h5.read_unread, h6.read_unread, h7.read_unread,
    View.ld_unit_zero (S := S1024x512) hz, View.ld_unit_zero (S := S1x1) hz]

/-- Case A, accumulator 1: the reset's store of the zero block, read back, then the store of its update. -/
theorem left_A_1 (c : Dev nD) (i : grid0.Coords) (a2 : Memref sig .tc .vmem S1024x512 .f32) (h2 : a2.IsWhole) (a3 : Memref sig .tc .vmem S1024x512 .f32) (h3 : a3.IsWhole)
    (a4 : Memref sig .tc .vmem S8x128 .f32) (h4 : a4.IsWhole) (a5 : Memref sig .tc .vmem S1x1 .f32) (h5 : a5.IsWhole) (a6 : Memref sig .tc .vmem S1x1 .f32) (h6 : a6.IsWhole)
    (a7 : Memref sig .tc .vmem S1x1 .f32) (h7 : a7.IsWhole) (hc0 : cond0_0 i) (hc1 : ¬cond0_1 i)
    (x0 x1 : Vec F S1024x512 .f32) :
    sout0_A_1 c i a2 h2 a3 h3 a4 h4 a5 h5 a6 h6 a7 h7 hc0 hc1 x0 x1 = stepAA x0 x1 k0_pay5 := by
  unfold sout0_A_1
  rw [View.read_writes_eq_canon _ _ _ (scover0_A_1 c i a2 h2 a3 h3 a4 h4 a5 h5 a6 h6 a7 h7 hc0 hc1 x0 x1)]
  unfold kernelRun0_A
  dsimp only
  sl_unfold_words
  rw [View.canon_cons_unit_zero (S := S1x1) hz, View.readCov_unit_zero (S := S1x1) _ hz]
  unfold stepAA
  simp only [View.readAt_eq_ld, h2.read_unread, h3.read_unread, h5.read_unread, h6.read_unread, h7.read_unread,
    View.ld_unit_zero (S := S1024x512) hz, View.ld_unit_zero (S := S1x1) hz]

/-- Case A, accumulator 2: the reset's store of the zero block, read back, then the store of its update. -/
theorem left_A_2 (c : Dev nD) (i : grid0.Coords) (a2 : Memref sig .tc .vmem S1024x512 .f32) (h2 : a2.IsWhole) (a3 : Memref sig .tc .vmem S1024x512 .f32) (h3 : a3.IsWhole)
    (a4 : Memref sig .tc .vmem S8x128 .f32) (h4 : a4.IsWhole) (a5 : Memref sig .tc .vmem S1x1 .f32) (h5 : a5.IsWhole) (a6 : Memref sig .tc .vmem S1x1 .f32) (h6 : a6.IsWhole)
    (a7 : Memref sig .tc .vmem S1x1 .f32) (h7 : a7.IsWhole) (hc0 : cond0_0 i) (hc1 : ¬cond0_1 i)
    (x0 x1 : Vec F S1024x512 .f32) :
    sout0_A_2 c i a2 h2 a3 h3 a4 h4 a5 h5 a6 h6 a7 h7 hc0 hc1 x0 x1 = stepBB x0 x1 k0_pay6 := by
  unfold sout0_A_2
  rw [View.read_writes_eq_canon _ _ _ (scover0_A_2 c i a2 h2 a3 h3 a4 h4 a5 h5 a6 h6 a7 h7 hc0 hc1 x0 x1)]
  unfold kernelRun0_A
  dsimp only
  sl_unfold_words
  rw [View.canon_cons_unit_zero (S := S1x1) hz, View.readCov_unit_zero (S := S1x1) _ hz]
  unfold stepBB
  simp only [View.readAt_eq_ld, h2.read_unread, h3.read_unread, h5.read_unread, h6.read_unread, h7.read_unread,
    View.ld_unit_zero (S := S1024x512) hz, View.ld_unit_zero (S := S1x1) hz]

/-- Case C, the output block: the packing of the three accumulators as this point's updates just left them. -/
theorem out_C (c : Dev nD) (i : grid0.Coords) (a2 : Memref sig .tc .vmem S1024x512 .f32) (h2 : a2.IsWhole) (a3 : Memref sig .tc .vmem S1024x512 .f32) (h3 : a3.IsWhole)
    (a4 : Memref sig .tc .vmem S8x128 .f32) (h4 : a4.IsWhole) (a5 : Memref sig .tc .vmem S1x1 .f32) (h5 : a5.IsWhole) (a6 : Memref sig .tc .vmem S1x1 .f32) (h6 : a6.IsWhole)
    (a7 : Memref sig .tc .vmem S1x1 .f32) (h7 : a7.IsWhole) (hc0 : ¬cond0_0 i) (hc1 : cond0_1 i)
    (x0 x1 : Vec F S1024x512 .f32) (xs0 xs1 xs2 : Vec F S1x1 .f32) :
    out0_C_2 c i a2 h2 a3 h3 a4 h4 a5 h5 a6 h6 a7 h7 hc0 hc1 x0 x1 xs0 xs1 xs2 = pack (stepII x0 x1 xs0) (stepAA x0 x1 xs1) (stepBB x0 x1 xs2) := by
  unfold out0_C_2
  rw [View.read_writes_eq_canon _ _ _ (cover0_C_2 c i a2 h2 a3 h3 a4 h4 a5 h5 a6 h6 a7 h7 hc0 hc1 x0 x1 xs0 xs1 xs2)]
  unfold kernelRun0_C
  dsimp only
  sl_unfold_words
  rw [View.canon_unit_zero hz]
  simp only [View.readCov_unit_zero (S := S1x1) _ hz]
  unfold pack stepII stepAA stepBB
  simp only [View.readAt_eq_ld, h2.read_unread, h3.read_unread, h5.read_unread, h6.read_unread, h7.read_unread,
    View.ld_unit_zero (S := S1024x512) hz, View.ld_unit_zero (S := S1x1) hz]

end Cert.KernelIdeal.Body

end
-- ==== Proof.MaskLaw.lean ====
/-
  The pointwise law behind the masked dice sums. A mask entry is 0 or 1, so it is idempotent under the
  product; the extended reals are a commutative monoid with zero under the product, so for ANY two
  extended reals p and t (finite or not)

      (p · m) · (t · m) = (p · t) · m        whenever m = 0 or m = 1.

  The left side is what the reference sums (it masks both factors first), the right side what the
  kernel sums (it masks the product once).
-/
import Mathlib.Data.EReal.Basic

namespace Dice

/-- Masking both factors is masking the product once, for a mask value that is 0 or 1. -/
theorem mask_mul_mask (p t m : EReal) (hm : m = 0 ∨ m = 1) : (p * m) * (t * m) = (p * t) * m := by
  rcases hm with rfl | rfl
  · simp
  · simp

end Dice
-- ==== Proof.DiceSpec.lean ====
/-
  The dice loss over the extended reals, as both programs compute it.

  With m(t) = 1 if t > -1 and 0 otherwise (the mask of one target entry), the three masked sums are

      II = Σ p·t·m(t)      AA = Σ p·p·m(t)      BB = Σ t·t·m(t)

  over all entries (p, t) of (pred, target), and the result is  1 - (2·II + 1) / (AA + BB + 1).
  The kernel forms each summand as (product)·m; the reference masks both factors first, (p·m)·(t·m).
  Since m is 0 or 1 these agree (`Dice.mask_mul_mask`), on every extended real.
-/
import Idealize.ShloMosaic.PureOps.Ideal
import Idealize.ShloMosaic.Lib.ValueIdx
import proofs.«174891_j81956565942483_2_alg».proof.Proof.MaskLaw

noncomputable section

namespace Dice

open Idealize.ShloMosaic Idealize.ShloMosaic.ValueIdx

/-- A one-bit word as a number: 0 or 1. -/
def bitVal (b : BitVec 1) : EReal := ((b.toNat : ℝ) : EReal)

theorem bitVal_zero : bitVal 0#1 = 0 := by simp [bitVal]
theorem bitVal_one : bitVal 1#1 = 1 := by simp [bitVal]

theorem bitVal_01 (b : BitVec 1) : bitVal b = 0 ∨ bitVal b = 1 := by
  by_cases h : b = 1#1
  · right; rw [h]; exact bitVal_one
  · left; rw [eq_zero_of_ne_one h]; exact bitVal_zero

theorem toInt_widen_one : ((1#1 : BitVec 1).setWidth 32).toInt = 1 := by decide
theorem toInt_widen_zero : ((0#1 : BitVec 1).setWidth 32).toInt = 0 := by decide

/-- Widening the bit to 32 bits and reading it as a signed integer gives the same number. -/
theorem widen_toInt (b : BitVec 1) : (((b.setWidth 32).toInt : ℝ) : EReal) = bitVal b := by
  by_cases h : b = 1#1
  · rw [h, toInt_widen_one, bitVal_one]; simp
  · rw [eq_zero_of_ne_one h, toInt_widen_zero, bitVal_zero]; simp

/-- The mask of one target entry: 1 where it exceeds -1, else 0. -/
def mask (t : EReal) : EReal := bitVal (Ideal.cmp .ogt t (Ideal.ofBits .f32 0xBF800000#32))

theorem mask_01 (t : EReal) : mask t = 0 ∨ mask t = 1 := bitVal_01 _

/-- The three summands, as the kernel forms them: the product, masked once. -/
def tII (p t : EReal) : EReal := p * t * mask t
def tAA (p t : EReal) : EReal := p * p * mask t
def tBB (_p t : EReal) : EReal := t * t * mask t

/-- The reference's summands — both factors masked first — are the same numbers. -/
theorem ref_II (p t : EReal) : (p * mask t) * (t * mask t) = tII p t := mask_mul_mask p t _ (mask_01 t)
theorem ref_AA (p t : EReal) : (p * mask t) * (p * mask t) = tAA p t := mask_mul_mask p p _ (mask_01 t)
theorem ref_BB (p t : EReal) : (t * mask t) * (t * mask t) = tBB p t := mask_mul_mask t t _ (mask_01 t)

/-- The result from the three masked sums: 1 - (2·II + 1) / (AA + BB + 1). -/
def loss (ii aa bb : EReal) : EReal :=
  Ideal.ofBits .f32 0x3F800000#32
    - Ideal.div (Ideal.ofBits .f32 0x40000000#32 * ii + Ideal.ofBits .f32 0x3F800000#32)
        (aa + bb + Ideal.ofBits .f32 0x3F800000#32)

/-- The sum of a summand over one 1024×512 block of (pred, target) rows. -/
def blockSum (f : EReal → EReal → EReal) (x0 x1 : (⟨2, ![1024, 512]⟩ : Shape).Idx → EReal) : EReal :=
  ∑ a : Fin 1024, ∑ k : Fin 512, f (x0 (ix2 a k)) (x1 (ix2 a k))

end Dice

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.LibColumnSum.lean ====
/-
  The second half of a sum that keeps its axes: a column [a, 1] summed along its rows into a one-element
  array. At exact arithmetic the float sum into an array whose every axis has extent one is the sum over
  every entry of the operand; for a column that is the sum over its row coordinate. And the one-element
  array cast to 1×1 moves no value (the cast of a vector to a column, at a = 1).
-/
import Idealize.ShloMosaic.Lib.ValueLayout
import Idealize.ShloMosaic.PureOps.Ideal.Laws

namespace Cert.Lib.ColumnSum

open Idealize.ShloMosaic Idealize.ShloMosaic.ValueIdx

/-- A float sum of a column [a, 1] over its rows from the zero word, at exact arithmetic, is at its one index
    the sum of the column's entries. -/
theorem colSum_apply {a : ℕ} (src : FVec Ideal ⟨2, ![a, 1]⟩ .f32)
    (h : (⟨2, ![a, 1]⟩ : Shape).Reduces [0] (⟨1, ![1]⟩ : Shape)) (hφ : FKind.Formats .f32)
    (hacc : (0x00000000#32 : BitVec 32) = 0x00000000#32) (u : Fin 1) :
    multiReduction .add [0] ⟨1, ![1]⟩ src 0x00000000#32 h hφ hacc (ix1 u) = ∑ p : Fin a, src (ix2 p (0 : Fin 1)) := by
  refine (Ideal.multiReduction_add_total src 0x00000000#32 h (fun b => by fin_cases b; rfl) hφ hacc (ix1 u)).trans ?_
  rw [sum_idx2]
  exact Finset.sum_congr rfl fun p _ => Fin.sum_univ_one _

end Cert.Lib.ColumnSum
-- ==== Proof.PointSums.lean ====
/-
  One grid point's three updates, read at exact arithmetic.

  The body reduces a 1024×512 block in two steps that keep the reduced axis: first along the lanes
  ([1024,512] → [1024] → column [1024,1]), then along the rows ([1024,1] → [1] → [1,1]). At exact
  arithmetic a lane sum is a finite sum over the lane coordinate, the sum into a one-element array is
  the sum over every entry of the column, and the casts move no value: so the 1×1 result is the double
  sum over (row, lane) of the block's summand, and the update adds it to the running value.
  The summand's mask is the comparison bit widened to 32 bits and read as a signed integer: 0 or 1.
-/
import proofs.«174891_j81956565942483_2_alg».proof.Proof.Gen.KernelIdeal.Skeleton
import proofs.«174891_j81956565942483_2_alg».proof.Proof.DiceSpec
import proofs.«174891_j81956565942483_2_alg».proof.Proof.LibKeepdims
import proofs.«174891_j81956565942483_2_alg».proof.Proof.LibColumnSum
import Idealize.ShloMosaic.Lib.Pipeline.Value
import Idealize.ShloMosaic.PureOps.Ideal.Laws

noncomputable section

namespace Cert.KernelIdeal.PointSums

open Idealize.ShloMosaic Idealize.ShloMosaic.ValueIdx Cert.Lib.Keepdims Cert.Lib.ColumnSum
open Cert.KernelIdeal Cert.KernelIdeal.Gen

/-- The one index of a 1×1 array. -/
theorem idx11 (j : S1x1.Idx) : j = ix2 (0 : Fin 1) (0 : Fin 1) := by
  funext a; apply Fin.ext
  match a with
  | ⟨0, _⟩ => have h := idx2_lt0 j; show (j 0).val = 0; omega
  | ⟨1, _⟩ => have h := idx2_lt1 j; show (j 1).val = 0; omega

/-- The mask block at an entry: the mask of the target entry. -/
theorem mask_apply (x1 : Vec Ideal S1024x512 .f32) (i : S1024x512.Idx) :
    k0_pay9 (F := Ideal) x1 i = Dice.mask (x1 i) := by
  unfold k0_pay9 k0_pay8
  dsimp only
  rw [shapeCast_self]
  exact Dice.widen_toInt _

/-- The keepdims double reduction of a block, at its one index: the double sum over rows and lanes. -/
theorem total_apply (v : FVec Ideal S1024x512 .f32) (h1 : S1024x512.Reduces [1] S1024) (h2 : S1024x1.Reduces [0] S1)
    (hφ : FKind.Formats .f32) (hacc : (0x00000000#32 : BitVec 32) = 0x00000000#32)
    (hc1 : S1024.ShapeCasts S1024x1) (hc2 : S1.ShapeCasts S1x1) :
    shapeCast S1x1 (multiReduction .add [0] S1 (shapeCast S1024x1 (multiReduction .add [1] S1024 v 0x00000000#32 h1 hφ hacc) hc1)
        0x00000000#32 h2 hφ hacc) hc2 (ix2 (0 : Fin 1) (0 : Fin 1))
      = ∑ a : Fin 1024, ∑ k : Fin 512, v (ix2 a k) := by
  refine (shapeCast_a_a1_apply _ hc2 (0 : Fin 1) (0 : Fin 1)).trans ?_
  refine (colSum_apply _ h2 hφ hacc (0 : Fin 1)).trans ?_
  refine Finset.sum_congr rfl fun a _ => ?_
  refine (shapeCast_a_a1_apply _ hc1 a (0 : Fin 1)).trans ?_
  exact rowSum_apply v h1 hφ hacc a

theorem pay7_eq (x0 : Vec Ideal S1024x512 .f32) : k0_pay7 (F := Ideal) x0 = x0 := by
  unfold k0_pay7; dsimp only; exact shapeCast_self _ _

theorem pay8_eq (x1 : Vec Ideal S1024x512 .f32) : k0_pay8 (F := Ideal) x1 = x1 := by
  unfold k0_pay8; dsimp only; exact shapeCast_self _ _

/-- The pred·target update: the running value plus the block's masked sum of pred·target. -/
theorem pay11_apply (x0 x1 : Vec Ideal S1024x512 .f32) (acc : Vec Ideal S1x1 .f32) (j : S1x1.Idx) :
    k0_pay11 (F := Ideal) x0 x1 acc j = acc j + Dice.blockSum Dice.tII x0 x1 := by
  rw [idx11 j]
  unfold k0_pay11
  dsimp only
  rw [shapeCast_self]
  refine congrArg (acc (ix2 (0 : Fin 1) (0 : Fin 1)) + ·) ?_
  refine (total_apply _ _ _ _ _ _ _).trans ?_
  unfold Dice.blockSum
  refine Finset.sum_congr rfl fun a _ => Finset.sum_congr rfl fun k _ => ?_
  show (k0_pay7 x0 (ix2 a k) * k0_pay8 x1 (ix2 a k)) * k0_pay9 x1 (ix2 a k) = Dice.tII (x0 (ix2 a k)) (x1 (ix2 a k))
  rw [mask_apply, pay7_eq, pay8_eq]
  rfl

/-- The pred·pred update: the running value plus the block's masked sum of pred·pred. -/
theorem pay12_apply (x0 x1 : Vec Ideal S1024x512 .f32) (acc : Vec Ideal S1x1 .f32) (j : S1x1.Idx) :
    k0_pay1 (F := Ideal) (k0_pay12 x0 x1 acc) j = acc j + Dice.blockSum Dice.tAA x0 x1 := by
  rw [idx11 j]
  unfold k0_pay1 k0_pay12
  dsimp only
  rw [shapeCast_self]
  refine congrArg (acc (ix2 (0 : Fin 1) (0 : Fin 1)) + ·) ?_
  refine (total_apply _ _ _ _ _ _ _).trans ?_
  unfold Dice.blockSum
  refine Finset.sum_congr rfl fun a _ => Finset.sum_congr rfl fun k _ => ?_
  show (k0_pay7 x0 (ix2 a k) * k0_pay7 x0 (ix2 a k)) * k0_pay9 x1 (ix2 a k) = Dice.tAA (x0 (ix2 a k)) (x1 (ix2 a k))
  rw [mask_apply, pay7_eq]
  rfl

/-- The target·target update: the running value plus the block's masked sum of target·target. -/
theorem pay10_apply (x0 x1 : Vec Ideal S1024x512 .f32) (acc : Vec Ideal S1x1 .f32) (j : S1x1.Idx) :
    k0_pay2 (F := Ideal) (k0_pay10 x1) acc j = acc j + Dice.blockSum Dice.tBB x0 x1 := by
  rw [idx11 j]
  unfold k0_pay2 k0_pay10
  dsimp only
  rw [shapeCast_self]
  refine congrArg (acc (ix2 (0 : Fin 1) (0 : Fin 1)) + ·) ?_
  refine (total_apply _ _ _ _ _ _ _).trans ?_
  unfold Dice.blockSum
  refine Finset.sum_congr rfl fun a _ => Finset.sum_congr rfl fun k _ => ?_
  show (k0_pay8 x1 (ix2 a k) * k0_pay8 x1 (ix2 a k)) * k0_pay9 x1 (ix2 a k) = Dice.tBB (x0 (ix2 a k)) (x1 (ix2 a k))
  rw [mask_apply, pay8_eq]
  rfl

/-- The three reset values are the zero block. -/
theorem pay4_apply (j : S1x1.Idx) : k0_pay4 (F := Ideal) j = 0 := by
  unfold k0_pay4; rw [shapeCast_self]; exact Ideal.ofBits_zero_f32
theorem pay5_apply (j : S1x1.Idx) : k0_pay5 (F := Ideal) j = 0 := by
  unfold k0_pay5; rw [shapeCast_self]; exact Ideal.ofBits_zero_f32
theorem pay6_apply (j : S1x1.Idx) : k0_pay6 (F := Ideal) j = 0 := by
  unfold k0_pay6; rw [shapeCast_self]; exact Ideal.ofBits_zero_f32

end Cert.KernelIdeal.PointSums

end
-- ==== Proof.Fold.lean ====
/-
  The three accumulators over the grid, as folds and then as sums.

  The 16 grid points are visited in order; points 0–7 belong to the first core's row range, 8–15 to the
  second's. An accumulator is reset at the points divisible by 8 and updated from the point before at every
  other point, so after point 8q + j it is the fold of the updates over points 8q … 8q + j starting from
  the zero block. Each update adds the point's block sum, so at exact arithmetic the value after point
  8q + 7 is 0 + (the sum over the eight points 8q … 8q + 7 of their block sums). At the points ≡ 7 (mod 8)
  the output block is the packing of the three accumulators.
-/
import proofs.«174891_j81956565942483_2_alg».proof.Proof.BodyCases
import proofs.«174891_j81956565942483_2_alg».proof.Proof.PointSums
import Idealize.ShloMosaic.Lib.Pipeline.Value

set_option maxRecDepth 16384

noncomputable section

namespace Cert.KernelIdeal.Fold

open Idealize.ShloMosaic Idealize.ShloMosaic.TcCoe Idealize.SL.Sem
open Cert.KernelIdeal Cert.KernelIdeal.Gen Cert.KernelIdeal.Body Cert.KernelIdeal.PointSums

variable {F : FTy → Type} [FloatOps F]
variable (m : (ℓ : Loc nD τ sig) → Buf (Elt F) ℓ)

/-- The blocks of pred and of target the body is run on at point `t`. -/
def blkP (c : Dev nD) (t : Fin cfg0.N) : Vec F S1024x512 .f32 := iblk m c 0 t
def blkT (c : Dev nD) (t : Fin cfg0.N) : Vec F S1024x512 .f32 := iblk m c 1 t

/-- The II accumulator after point `n`. -/
def accII (c : Dev nD) (n : ℕ) (h : n < cfg0.N) : Vec F S1x1 .f32 := (outsAt0 m c n h).2.1
/-- The AA accumulator after point `n`. -/
def accAA (c : Dev nD) (n : ℕ) (h : n < cfg0.N) : Vec F S1x1 .f32 := (outsAt0 m c n h).2.2.1
/-- The BB accumulator after point `n`. -/
def accBB (c : Dev nD) (n : ℕ) (h : n < cfg0.N) : Vec F S1x1 .f32 := (outsAt0 m c n h).2.2.2

/-- At a point divisible by 8 each accumulator is the update of the zero block by the point's blocks. -/
theorem acc_reset (c : Dev nD) (n : ℕ) (h : n < cfg0.N) (h0 : n % 8 = 0) :
    accII m c n h = stepII (blkP m c ⟨n, h⟩) (blkT m c ⟨n, h⟩) k0_pay4
    ∧ accAA m c n h = stepAA (blkP m c ⟨n, h⟩) (blkT m c ⟨n, h⟩) k0_pay5
    ∧ accBB m c n h = stepBB (blkP m c ⟨n, h⟩) (blkT m c ⟨n, h⟩) k0_pay6 := by
  have h1 : ¬(⟨n, h⟩ : Fin cfg0.N).val % 8 = 7 := by dsimp only; omega
  have h0' : (⟨n, h⟩ : Fin cfg0.N).val % 8 = 0 := h0
  unfold accII accAA accBB blkP blkT
  rw [outsAt0_A m c ⟨n, h⟩ h0' h1]
  dsimp only
  exact ⟨left_A_0 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) scM0_1 (Memref.isWhole_whole _) scM0_2 (Memref.isWhole_whole _) ((hcond0_0 ⟨n, h⟩).mpr h0') (fun hh => h1 ((hcond0_1 ⟨n, h⟩).mp hh)) (iblk m c 0 ⟨n, h⟩) (iblk m c 1 ⟨n, h⟩),
    left_A_1 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) scM0_1 (Memref.isWhole_whole _) scM0_2 (Memref.isWhole_whole _) ((hcond0_0 ⟨n, h⟩).mpr h0') (fun hh => h1 ((hcond0_1 ⟨n, h⟩).mp hh)) (iblk m c 0 ⟨n, h⟩) (iblk m c 1 ⟨n, h⟩),
    left_A_2 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) scM0_1 (Memref.isWhole_whole _) scM0_2 (Memref.isWhole_whole _) ((hcond0_0 ⟨n, h⟩).mpr h0') (fun hh => h1 ((hcond0_1 ⟨n, h⟩).mp hh)) (iblk m c 0 ⟨n, h⟩) (iblk m c 1 ⟨n, h⟩)⟩

/-- At any other point each accumulator is the update, by the point's blocks, of what the point before left. -/
theorem acc_step (c : Dev nD) (n : ℕ) (h : n + 1 < cfg0.N) (h0 : ¬(n + 1) % 8 = 0) :
    accII m c (n + 1) h = stepII (blkP m c ⟨n + 1, h⟩) (blkT m c ⟨n + 1, h⟩) (accII m c n (Nat.lt_of_succ_lt h))
    ∧ accAA m c (n + 1) h = stepAA (blkP m c ⟨n + 1, h⟩) (blkT m c ⟨n + 1, h⟩) (accAA m c n (Nat.lt_of_succ_lt h))
    ∧ accBB m c (n + 1) h = stepBB (blkP m c ⟨n + 1, h⟩) (blkT m c ⟨n + 1, h⟩) (accBB m c n (Nat.lt_of_succ_lt h)) := by
  have h0' : ¬(⟨n + 1, h⟩ : Fin cfg0.N).val % 8 = 0 := h0
  have hn : n < cfg0.N := Nat.lt_of_succ_lt h
  unfold accII accAA accBB blkP blkT
  by_cases h1 : (⟨n + 1, h⟩ : Fin cfg0.N).val % 8 = 7
  · rw [outsAt0_C m c ⟨n + 1, h⟩ h0' h1]
    dsimp only
    exact ⟨left_C_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) (fun hh => h0' ((hcond0_0 ⟨n + 1, h⟩).mp hh)) ((hcond0_1 ⟨n + 1, h⟩).mpr h1) (iblk m c 0 ⟨n + 1, h⟩) (iblk m c 1 ⟨n + 1, h⟩) (outsAt0 m c n hn).2.1 (outsAt0 m c n hn).2.2.1 (outsAt0 m c n hn).2.2.2,
      left_C_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) (fun hh => h0' ((hcond0_0 ⟨n + 1, h⟩).mp hh)) ((hcond0_1 ⟨n + 1, h⟩).mpr h1) (iblk m c 0 ⟨n + 1, h⟩) (iblk m c 1 ⟨n + 1, h⟩) (outsAt0 m c n hn).2.1 (outsAt0 m c n hn).2.2.1 (outsAt0 m c n hn).2.2.2,
      left_C_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) (fun hh => h0' ((hcond0_0 ⟨n + 1, h⟩).mp hh)) ((hcond0_1 ⟨n + 1, h⟩).mpr h1) (iblk m c 0 ⟨n + 1, h⟩) (iblk m c 1 ⟨n + 1, h⟩) (outsAt0 m c n hn).2.1 (outsAt0 m c n hn).2.2.1 (outsAt0 m c n hn).2.2.2⟩
  · rw [outsAt0_B m c ⟨n + 1, h⟩ h0' h1]
    dsimp only
    exact ⟨left_B_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) (fun hh => h0' ((hcond0_0 ⟨n + 1, h⟩).mp hh)) (fun hh => h1 ((hcond0_1 ⟨n + 1, h⟩).mp hh)) (iblk m c 0 ⟨n + 1, h⟩) (iblk m c 1 ⟨n + 1, h⟩) (outsAt0 m c n hn).2.1 (outsAt0 m c n hn).2.2.1 (outsAt0 m c n hn).2.2.2,
      left_B_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) (fun hh => h0' ((hcond0_0 ⟨n + 1, h⟩).mp hh)) (fun hh => h1 ((hcond0_1 ⟨n + 1, h⟩).mp hh)) (iblk m c 0 ⟨n + 1, h⟩) (iblk m c 1 ⟨n + 1, h⟩) (outsAt0 m c n hn).2.1 (outsAt0 m c n hn).2.2.1 (outsAt0 m c n hn).2.2.2,
      left_B_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) (fun hh => h0' ((hcond0_0 ⟨n + 1, h⟩).mp hh)) (fun hh => h1 ((hcond0_1 ⟨n + 1, h⟩).mp hh)) (iblk m c 0 ⟨n + 1, h⟩) (iblk m c 1 ⟨n + 1, h⟩) (outsAt0 m c n hn).2.1 (outsAt0 m c n hn).2.2.1 (outsAt0 m c n hn).2.2.2⟩

/-- At a point ≡ 7 (mod 8) the output block is the packing of the three accumulators as that point leaves them. -/
theorem out_pack (c : Dev nD) (t : Fin cfg0.N) (h1 : t.val % 8 = 7) :
    (outsAt0 m c t.val t.isLt).1 = pack (accII m c t.val t.isLt) (accAA m c t.val t.isLt) (accBB m c t.val t.isLt) := by
  have h0 : ¬t.val % 8 = 0 := by omega
  have hp : t.val - 1 < cfg0.N := Nat.lt_of_le_of_lt (Nat.sub_le _ _) t.isLt
  unfold accII accAA accBB
  rw [outsAt0_C m c t h0 h1]
  dsimp only
  rw [left_C_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun hh => h0 ((hcond0_0 t).mp hh)) ((hcond0_1 t).mpr h1) (iblk m c 0 t) (iblk m c 1 t) (outsAt0 m c (t.val - 1) hp).2.1 (outsAt0 m c (t.val - 1) hp).2.2.1 (outsAt0 m c (t.val - 1) hp).2.2.2,
    left_C_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun hh => h0 ((hcond0_0 t).mp hh)) ((hcond0_1 t).mpr h1) (iblk m c 0 t) (iblk m c 1 t) (outsAt0 m c (t.val - 1) hp).2.1 (outsAt0 m c (t.val - 1) hp).2.2.1 (outsAt0 m c (t.val - 1) hp).2.2.2,
    left_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun hh => h0 ((hcond0_0 t).mp hh)) ((hcond0_1 t).mpr h1) (iblk m c 0 t) (iblk m c 1 t) (outsAt0 m c (t.val - 1) hp).2.1 (outsAt0 m c (t.val - 1) hp).2.2.1 (outsAt0 m c (t.val - 1) hp).2.2.2]
  exact out_C c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun hh => h0 ((hcond0_0 t).mp hh)) ((hcond0_1 t).mpr h1) (iblk m c 0 t) (iblk m c 1 t) (outsAt0 m c (t.val - 1) hp).2.1 (outsAt0 m c (t.val - 1) hp).2.2.1 (outsAt0 m c (t.val - 1) hp).2.2.2

/-- After point 8q + j (j < 8) the II accumulator is the fold of the updates over points 8q … 8q + j. -/
theorem accII_fold (c : Dev nD) (q j : ℕ) (hj : j < 8) (h : 8 * q + j < cfg0.N) :
    accII m c (8 * q + j) h
      = Pipeline.accAt (fun n hn => stepII (blkP m c ⟨n, hn⟩) (blkT m c ⟨n, hn⟩) k0_pay4)
          (fun n hn s => stepII (blkP m c ⟨n, hn⟩) (blkT m c ⟨n, hn⟩) s) (8 * q) j h :=
  Pipeline.eq_accAt (accII m c) 8 _ _ (fun n hn h0 => (acc_reset m c n hn h0).1)
    (fun n hn h0 => (acc_step m c n hn h0).1) q j hj h

/-- After point 8q + j (j < 8) the AA accumulator is the fold of the updates over points 8q … 8q + j. -/
theorem accAA_fold (c : Dev nD) (q j : ℕ) (hj : j < 8) (h : 8 * q + j < cfg0.N) :
    accAA m c (8 * q + j) h
      = Pipeline.accAt (fun n hn => stepAA (blkP m c ⟨n, hn⟩) (blkT m c ⟨n, hn⟩) k0_pay5)
          (fun n hn s => stepAA (blkP m c ⟨n, hn⟩) (blkT m c ⟨n, hn⟩) s) (8 * q) j h :=
  Pipeline.eq_accAt (accAA m c) 8 _ _ (fun n hn h0 => (acc_reset m c n hn h0).2.1)
    (fun n hn h0 => (acc_step m c n hn h0).2.1) q j hj h

/-- After point 8q + j (j < 8) the BB accumulator is the fold of the updates over points 8q … 8q + j. -/
theorem accBB_fold (c : Dev nD) (q j : ℕ) (hj : j < 8) (h : 8 * q + j < cfg0.N) :
    accBB m c (8 * q + j) h
      = Pipeline.accAt (fun n hn => stepBB (blkP m c ⟨n, hn⟩) (blkT m c ⟨n, hn⟩) k0_pay6)
          (fun n hn s => stepBB (blkP m c ⟨n, hn⟩) (blkT m c ⟨n, hn⟩) s) (8 * q) j h :=
  Pipeline.eq_accAt (accBB m c) 8 _ _ (fun n hn h0 => (acc_reset m c n hn h0).2.2)
    (fun n hn h0 => (acc_step m c n hn h0).2.2) q j hj h

end Cert.KernelIdeal.Fold

/-! ## At exact arithmetic: the fold is a sum of block sums -/

namespace Cert.KernelIdeal.Fold

open Idealize.ShloMosaic Idealize.ShloMosaic.TcCoe Idealize.SL.Sem
open Cert.KernelIdeal Cert.KernelIdeal.Gen Cert.KernelIdeal.Body Cert.KernelIdeal.PointSums

variable (m : (ℓ : Loc nD τ sig) → Buf (Elt Ideal) ℓ)

/-- Point `n`'s block sum of a summand (0 past the grid, where it is never used). -/
def ptSum (f : EReal → EReal → EReal) (c : Dev nD) (n : ℕ) : EReal :=
  if h : n < cfg0.N then Dice.blockSum f (blkP m c ⟨n, h⟩) (blkT m c ⟨n, h⟩) else 0

/-- After point 8q + 7 the II accumulator holds 0 + the sum over the eight points 8q … 8q + 7 of their block sums. -/
theorem accII_sum (c : Dev nD) (q : ℕ) (h : 8 * q + 7 < cfg0.N) (i : S1x1.Idx) :
    accII m c (8 * q + 7) h i = 0 + ∑ s ∈ Finset.range 8, ptSum m Dice.tII c (8 * q + s) := by
  rw [accII_fold m c q 7 (by omega) h]
  exact Pipeline.accAt_add_apply _ _ (fun _ => (0 : EReal)) (fun n _ => ptSum m Dice.tII c n) (8 * q) 7
    (fun hb i => by
      show stepII _ _ _ i = _
      unfold stepII
      rw [pay11_apply, pay4_apply]; unfold ptSum; rw [dif_pos hb])
    (fun n hn acc i _ _ => by
      show stepII _ _ _ i = _
      unfold stepII
      rw [pay11_apply]; unfold ptSum; rw [dif_pos hn])
    7 (le_refl 7) h i

/-- After point 8q + 7 the AA accumulator holds 0 + the sum over the eight points 8q … 8q + 7 of their block sums. -/
theorem accAA_sum (c : Dev nD) (q : ℕ) (h : 8 * q + 7 < cfg0.N) (i : S1x1.Idx) :
    accAA m c (8 * q + 7) h i = 0 + ∑ s ∈ Finset.range 8, ptSum m Dice.tAA c (8 * q + s) := by
  rw [accAA_fold m c q 7 (by omega) h]
  exact Pipeline.accAt_add_apply _ _ (fun _ => (0 : EReal)) (fun n _ => ptSum m Dice.tAA c n) (8 * q) 7
    (fun hb i => by
      show stepAA _ _ _ i = _
      unfold stepAA
      rw [pay12_apply, pay5_apply]; unfold ptSum; rw [dif_pos hb])
    (fun n hn acc i _ _ => by
      show stepAA _ _ _ i = _
      unfold stepAA
      rw [pay12_apply]; unfold ptSum; rw [dif_pos hn])
    7 (le_refl 7) h i

/-- After point 8q + 7 the BB accumulator holds 0 + the sum over the eight points 8q … 8q + 7 of their block sums. -/
theorem accBB_sum (c : Dev nD) (q : ℕ) (h : 8 * q + 7 < cfg0.N) (i : S1x1.Idx) :
    accBB m c (8 * q + 7) h i = 0 + ∑ s ∈ Finset.range 8, ptSum m Dice.tBB c (8 * q + s) := by
  rw [accBB_fold m c q 7 (by omega) h]
  exact Pipeline.accAt_add_apply _ _ (fun _ => (0 : EReal)) (fun n _ => ptSum m Dice.tBB c n) (8 * q) 7
    (fun hb i => by
      show stepBB _ _ _ i = _
      unfold stepBB
      rw [pay10_apply, pay6_apply]; unfold ptSum; rw [dif_pos hb])
    (fun n hn acc i _ _ => by
      show stepBB _ _ _ i = _
      unfold stepBB
      rw [pay10_apply]; unfold ptSum; rw [dif_pos hn])
    7 (le_refl 7) h i

end Cert.KernelIdeal.Fold

end
-- ==== Proof.PackRead.lean ====
/-
  The packed output block, read at the three entries the host reads.

  The block is row 0 = [u | v | w | 125 zeros] over seven zero rows, built as two concatenations: of four
  pieces of extents 1, 1, 1, 125 along the lanes, then of that row and a 7×128 zero block along the rows.
  Entry (0, 0) is therefore u's one entry, (0, 1) is v's, (0, 2) is w's.
-/
import proofs.«174891_j81956565942483_2_alg».proof.Proof.Gen.KernelIdeal.Skeleton
import Idealize.ShloMosaic.Lib.Pipeline.Value
import Idealize.ShloMosaic.Lib.ValueIdx

noncomputable section

namespace Cert.KernelIdeal.PackRead

open Idealize.ShloMosaic Idealize.ShloMosaic.ValueIdx
open Cert.KernelIdeal Cert.KernelIdeal.Gen

variable {F : FTy → Type} [FloatOps F]

/-- Row 0 of the packed block is the four-piece row. -/
theorem pay3_row0 (u v w : Vec F S1x1 .f32) (k : Fin 128) :
    k0_pay3 u v w (ix2 (0 : Fin 8) k)
      = concatenate S1x128 1 [⟨S1x1, u⟩, ⟨S1x1, v⟩, ⟨S1x1, w⟩, ⟨S1x125, broadcast S1x125 (Scalar.ofBits .f32 0x00000000#32)⟩]
          concatenates_S1x1_S1x1_S1x1_S1x125_S1x128_d1 (ix2 (0 : Fin 1) k) := by
  unfold k0_pay3
  exact concatenate_pair_apply_left (t := S8x128) (s₁ := S1x128) (s₂ := S7x128) (0 : Fin 2) _ _ concatenates_S1x128_S7x128_S8x128_d0
    (ix2 (0 : Fin 8) k) rfl (ix2 (0 : Fin 1) k) (fun b => by fin_cases b <;> rfl)

/-- Lane 0 of row 0 is the first value. -/
theorem pay3_lane0 (u v w : Vec F S1x1 .f32) :
    k0_pay3 u v w (ix2 (0 : Fin 8) (0 : Fin 128)) = u (ix2 (0 : Fin 1) (0 : Fin 1)) :=
  (pay3_row0 u v w 0).trans (concatenate_apply_piece (t := S1x128) (1 : Fin 2)
    [⟨S1x1, u⟩, ⟨S1x1, v⟩, ⟨S1x1, w⟩, ⟨S1x125, broadcast S1x125 (Scalar.ofBits .f32 0x00000000#32)⟩]
    concatenates_S1x1_S1x1_S1x1_S1x125_S1x128_d1 (ix2 (0 : Fin 1) (0 : Fin 128))
    0 (by simp) S1x1 u rfl rfl 0 (by rfl) (ix2 (0 : Fin 1) (0 : Fin 1))
    (fun b hb => by fin_cases b <;> first | rfl | exact absurd rfl hb) (by rfl))

/-- Lane 1 of row 0 is the second value. -/
theorem pay3_lane1 (u v w : Vec F S1x1 .f32) :
    k0_pay3 u v w (ix2 (0 : Fin 8) (1 : Fin 128)) = v (ix2 (0 : Fin 1) (0 : Fin 1)) :=
  (pay3_row0 u v w 1).trans (concatenate_apply_piece (t := S1x128) (1 : Fin 2)
    [⟨S1x1, u⟩, ⟨S1x1, v⟩, ⟨S1x1, w⟩, ⟨S1x125, broadcast S1x125 (Scalar.ofBits .f32 0x00000000#32)⟩]
    concatenates_S1x1_S1x1_S1x1_S1x125_S1x128_d1 (ix2 (0 : Fin 1) (1 : Fin 128))
    1 (by simp) S1x1 v rfl rfl 1 (by rfl) (ix2 (0 : Fin 1) (0 : Fin 1))
    (fun b hb => by fin_cases b <;> first | rfl | exact absurd rfl hb) (by rfl))

/-- Lane 2 of row 0 is the third value. -/
theorem pay3_lane2 (u v w : Vec F S1x1 .f32) :
    k0_pay3 u v w (ix2 (0 : Fin 8) (2 : Fin 128)) = w (ix2 (0 : Fin 1) (0 : Fin 1)) :=
  (pay3_row0 u v w 2).trans (concatenate_apply_piece (t := S1x128) (1 : Fin 2)
    [⟨S1x1, u⟩, ⟨S1x1, v⟩, ⟨S1x1, w⟩, ⟨S1x125, broadcast S1x125 (Scalar.ofBits .f32 0x00000000#32)⟩]
    concatenates_S1x1_S1x1_S1x1_S1x125_S1x128_d1 (ix2 (0 : Fin 1) (2 : Fin 128))
    2 (by simp) S1x1 w rfl rfl 2 (by rfl) (ix2 (0 : Fin 1) (0 : Fin 1))
    (fun b hb => by fin_cases b <;> first | rfl | exact absurd rfl hb) (by rfl))

end Cert.KernelIdeal.PackRead

end
-- ==== Proof.OutArray.lean ====
/-
  The [16, 128] result array after the region, at the six entries the host reads.

  Only the points ≡ 7 (mod 8) — 7 and 15 — write the output block back: point 7 to rows 0–7, point 15 to rows
  8–15. The two blocks share no entry, so each entry of the array ends at what its point wrote there: the
  packed block of that point. Hence entries (0, 0), (0, 1), (0, 2) are the three accumulators after point 7 and
  (8, 0), (8, 1), (8, 2) the three after point 15.
-/
import proofs.«174891_j81956565942483_2_alg».proof.Proof.Fold
import proofs.«174891_j81956565942483_2_alg».proof.Proof.PackRead
import Idealize.ShloMosaic.Lib.Pipeline.Value

set_option maxRecDepth 16384

noncomputable section

namespace Cert.KernelIdeal.OutArray

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body Cert.KernelIdeal.Fold Cert.KernelIdeal.PackRead

variable {F : FTy → Type} [FloatOps F]
variable (m : (ℓ : Loc nD τ sig) → Buf (Elt F) ℓ)

/-- Two points that both write the output back and have the same block index are the same point (decided over the grid). -/
theorem idx_inj_flush : ∀ t t' : Fin cfg0.N, (cfg0.win 2).flush t = true → (cfg0.win 2).flush t' = true →
    win0_2.index t = win0_2.index t' → t = t' :=
  (by decide +kernel : ∀ t t' : Fin grid0.N, win0_2.flush t = true → win0_2.flush t' = true →
    win0_2.index t = win0_2.index t' → t = t')

/-- So the blocks written back by two different points share no entry of the array. -/
theorem disjoint_out : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk fun h => hne (idx_inj_flush t t' hf hf' h)

/-- An entry under the block a point wrote back ends at that point's output block's entry. -/
theorem arr_at (c : Dev nD) (t : Fin cfg0.N) (hf : (cfg0.win 2).flush t = true) (y : S8x128.Idx) :
    (dats m 0 c).arrAt 2 cfg0.N (((cfg0.win 2).blk t).view.emb y) = (outsAt0 m c t.val t.isLt).1 y := by
  have h := congrFun ((dats m 0 c).read_blk_arrAt_eq_flushed 2 disjoint_out cfg0.N t t.isLt hf) y
  rw [View.read_apply] at h
  refine h.trans ?_
  show (cfg0.win 2).cut (grid0.coords t) ((dats m 0 c).after 2 t) y = _
  rw [after0_2]
  rfl

/-- Point 7's block sits at rows 0–7: its entry (0, k) is the array's (0, k). -/
theorem emb7 (k : Fin 128) : ((cfg0.win 2).blk t0_7).view.emb (ix2 (0 : Fin 8) k) = (ix2 (0 : Fin 16) k : S16x128.Idx) := by
  funext a; apply Fin.ext
  match a with
  | ⟨0, _⟩ => show win0_2.index t0_7 0 * 8 + 1 * 0 = 0
              rw [show win0_2.index t0_7 0 = 0 from by decide +kernel]
  | ⟨1, _⟩ => show win0_2.index t0_7 1 * 128 + 1 * k.val = k.val
              rw [show win0_2.index t0_7 1 = 0 from by decide +kernel]; omega

/-- Point 15's block sits at rows 8–15: its entry (0, k) is the array's (8, k). -/
theorem emb15 (k : Fin 128) : ((cfg0.win 2).blk t0_15).view.emb (ix2 (0 : Fin 8) k) = (ix2 (8 : Fin 16) k : S16x128.Idx) := by
  funext a; apply Fin.ext
  match a with
  | ⟨0, _⟩ => show win0_2.index t0_15 0 * 8 + 1 * 0 = 8
              rw [show win0_2.index t0_15 0 = 1 from by decide +kernel]
  | ⟨1, _⟩ => show win0_2.index t0_15 1 * 128 + 1 * k.val = k.val
              rw [show win0_2.index t0_15 1 = 0 from by decide +kernel]; omega

theorem flush7 : (cfg0.win 2).flush t0_7 = true := (flush0_2 t0_7).mpr (by decide)
theorem flush15 : (cfg0.win 2).flush t0_15 = true := (flush0_2 t0_15).mpr (by decide)

/-- The result array after the region. -/
abbrev OUT (c : Dev nD) : S16x128.Idx → Elt F .f32 := (dats m 0 c).arrAt 2 cfg0.N

/-- Row 0, lanes 0–2: the accumulators after point 7. -/
theorem out_row0 (c : Dev nD) :
    OUT m c (ix2 (0 : Fin 16) (0 : Fin 128)) = accII m c 7 t0_7.isLt (ix2 (0 : Fin 1) (0 : Fin 1))
    ∧ OUT m c (ix2 (0 : Fin 16) (1 : Fin 128)) = accAA m c 7 t0_7.isLt (ix2 (0 : Fin 1) (0 : Fin 1))
    ∧ OUT m c (ix2 (0 : Fin 16) (2 : Fin 128)) = accBB m c 7 t0_7.isLt (ix2 (0 : Fin 1) (0 : Fin 1)) := by
  have hp := out_pack m c t0_7 (by decide)
  refine ⟨?_, ?_, ?_⟩
  · rw [← emb7 0]; refine (arr_at m c t0_7 flush7 _).trans ?_; rw [hp]; exact pay3_lane0 _ _ _
  · rw [← emb7 1]; refine (arr_at m c t0_7 flush7 _).trans ?_; rw [hp]; exact pay3_lane1 _ _ _
  · rw [← emb7 2]; refine (arr_at m c t0_7 flush7 _).trans ?_; rw [hp]; exact pay3_lane2 _ _ _

/-- Row 8, lanes 0–2: the accumulators after point 15. -/
theorem out_row8 (c : Dev nD) :
    OUT m c (ix2 (8 : Fin 16) (0 : Fin 128)) = accII m c 15 t0_15.isLt (ix2 (0 : Fin 1) (0 : Fin 1))
    ∧ OUT m c (ix2 (8 : Fin 16) (1 : Fin 128)) = accAA m c 15 t0_15.isLt (ix2 (0 : Fin 1) (0 : Fin 1))
    ∧ OUT m c (ix2 (8 : Fin 16) (2 : Fin 128)) = accBB m c 15 t0_15.isLt (ix2 (0 : Fin 1) (0 : Fin 1)) := by
  have hp := out_pack m c t0_15 (by decide)
  refine ⟨?_, ?_, ?_⟩
  · rw [← emb15 0]; refine (arr_at m c t0_15 flush15 _).trans ?_; rw [hp]; exact pay3_lane0 _ _ _
  · rw [← emb15 1]; refine (arr_at m c t0_15 flush15 _).trans ?_; rw [hp]; exact pay3_lane1 _ _ _
  · rw [← emb15 2]; refine (arr_at m c t0_15 flush15 _).trans ?_; rw [hp]; exact pay3_lane2 _ _ _

end Cert.KernelIdeal.OutArray

end
-- ==== Proof.KernelRun.lean ====
/-
  The kernel program's result: the host lines after the region, applied to the result array.

  After the region the host reads the six entries (0, k) and (8, k), k = 0, 1, 2, of the [16, 128] array, adds the two
  cores' values of each of the three sums, and forms 1 - (2·II + 1) / (AA + BB + 1).
-/
import proofs.«174891_j81956565942483_2_alg».proof.Proof.OutArray
import Idealize.ShloMosaic.Lib.StableHlo.Run
import Idealize.ShloMosaic.Lib.Pipeline.Value

set_option maxRecDepth 16384

noncomputable section

namespace Cert.KernelIdeal.KernelRun

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.OutArray

variable {F : FTy → Type} [FloatOps F]
variable (m : (ℓ : Loc nD τ sig) → Buf (Elt F) ℓ) (ρ : Dev nD → PrngReg)

/-- The host lines after the region, as one function of the result array. -/
def tailOf (O : S16x128.Idx → F .f32) : S_.Idx → F .f32 :=
  subf (constant (F := F) S_ .f32 0x3F800000#32)
    (Host.divf
      (addf (mulf (constant (F := F) S_ .f32 0x40000000#32) (addf (shapeCast S_ (extractStridedSlice S1x1 ![0, 0] O slices_S16x128_S1x1_0_0) shapeCasts_S1x1_S_) (shapeCast S_ (extractStridedSlice S1x1 ![8, 0] O slices_S16x128_S1x1_8_0) shapeCasts_S1x1_S_))) (constant (F := F) S_ .f32 0x3F800000#32))
      (addf (addf (addf (shapeCast S_ (extractStridedSlice S1x1 ![0, 1] O slices_S16x128_S1x1_0_1) shapeCasts_S1x1_S_) (shapeCast S_ (extractStridedSlice S1x1 ![8, 1] O slices_S16x128_S1x1_8_1) shapeCasts_S1x1_S_)) (addf (shapeCast S_ (extractStridedSlice S1x1 ![0, 2] O slices_S16x128_S1x1_0_2) shapeCasts_S1x1_S_) (shapeCast S_ (extractStridedSlice S1x1 ![8, 2] O slices_S16x128_S1x1_8_2) shapeCasts_S1x1_S_))) (constant (F := F) S_ .f32 0x3F800000#32)))

set_option maxHeartbeats 2000000 in
/-- The kernel program's result is the host tail applied to the result array after the region. -/
theorem tail_eq (c : Dev nD) :
    Pipeline.afterTail₀ cfgs (dats m) 0 (V0 m) [hostOps1] c main_v23 = tailOf (OUT m c) := by
  have e : Pipeline.withArrays (cfgs 0).spec c (V0 m c) (fun w => (dats m 0 c).arrAt w (cfgs 0).N) (Proc.devRef .tc main_v2)
      = OUT m c := Pipeline.withArrays_arr spec0 launch0.win.arr_inj c _ _ 2
  unfold Pipeline.afterTail₀
  simp only [List.flatten_cons, List.flatten_nil, List.append_nil]
  after_results
  rw [e]
  rfl

/-- Every weakly fair execution of the kernel program terminates, with its result at the host tail of the result
    array and its arguments unchanged. -/
theorem run : θ_run defs (onTc (τ := τ) (main (F := F))) ⟨m, fun _ => 0, ρ⟩ (fun r => ∀ c : Dev nD,
      r.2.mem ((c.tc : Thread nD τ).loc main_v23) = tailOf (OUT m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v23 (Pipeline.mem_restRefs_of main_v23 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KernelRun

end
-- ==== Proof.SumRegroup.lean ====
/-
  Regrouping finite sums over a commutative monoid (used at the extended reals, where addition is commutative
  and associative on every value, infinite ones included).

  * A sum over the entries of a reshaped array is the sum over the entries of the array: a reshape is a
    bijection of indices.
  * A sum over all rows r < B·R splits as the sum over the B row blocks n and the R rows a inside a block, with
    r = n·R + a.
  * A sum over a matrix's entries is the double sum over (row, lane).
-/
import Idealize.ShloMosaic.Lib.ValueIdx
import Idealize.ShloMosaic.PureOps.ShapeOps
import Mathlib.Algebra.BigOperators.Fin

namespace Dice.Regroup

open Idealize.ShloMosaic Idealize.ShloMosaic.ValueIdx

variable {M : Type*} [AddCommMonoid M]

/-- Summing a two-argument summand over the indices of two arrays reshaped alike is summing it over the
    indices of the arrays themselves. -/
theorem sum_shapeCast {s t : Shape} {α : Type} (h : s.ShapeCasts t) (p q : s.Idx → α) (f : α → α → M) :
    ∑ j : t.Idx, f (shapeCast t p h j) (shapeCast t q h j) = ∑ x : s.Idx, f (p x) (q x) :=
  Equiv.sum_comp (Shape.reshapeEquiv h) (fun x => f (p x) (q x))

/-- 16 blocks of 1024 rows: the sum over the blocks of the sums over a block's rows is the sum over all 16384 rows. -/
theorem sum_blocks (g : Fin 16384 → M) :
    ∑ n : Fin 16, ∑ a : Fin 1024, g ⟨n.val * 1024 + a.val, by have := n.isLt; have := a.isLt; omega⟩ = ∑ r : Fin 16384, g r := by
  rw [← Equiv.sum_comp (finProdFinEquiv (m := 16) (n := 1024)) g, Fintype.sum_prod_type]
  refine Finset.sum_congr rfl fun n _ => Finset.sum_congr rfl fun a _ => congrArg g (Fin.ext ?_)
  show n.val * 1024 + a.val = a.val + 1024 * n.val
  omega

/-- The double sum over blocks, rows in a block and lanes of a function of a [16384, 512] index is the sum over
    all of that shape's indices. -/
theorem sum_blocks_lanes (G : (⟨2, ![16384, 512]⟩ : Shape).Idx → M) :
    ∑ n : Fin 16, ∑ a : Fin 1024, ∑ k : Fin 512,
        G (ix2 (⟨n.val * 1024 + a.val, by have := n.isLt; have := a.isLt; omega⟩ : Fin 16384) k)
      = ∑ y, G y := by
  rw [sum_idx2 G]
  exact sum_blocks fun r => ∑ k : Fin 512, G (ix2 r k)

end Dice.Regroup
-- ==== Proof.Totals.lean ====
/-
  The masked sums over a whole array, whatever its shape: reshaping both arrays alike does not change them.
-/
import proofs.«174891_j81956565942483_2_alg».proof.Proof.DiceSpec
import proofs.«174891_j81956565942483_2_alg».proof.Proof.SumRegroup

noncomputable section

namespace Dice

open Idealize.ShloMosaic

/-- The sum of a summand over all entries of (pred, target). -/
def total {s : Shape} (f : EReal → EReal → EReal) (p t : s.Idx → EReal) : EReal := ∑ x : s.Idx, f (p x) (t x)

/-- Reshaping pred and target alike leaves the sum as it was. -/
theorem total_shapeCast {s s' : Shape} (h : s.ShapeCasts s') (f : EReal → EReal → EReal) (p t : s.Idx → EReal) :
    total f (shapeCast s' p h) (shapeCast s' t h) = total f p t :=
  Regroup.sum_shapeCast h p t f

end Dice

end
-- ==== Proof.KernelTotal.lean ====
/-
  The kernel's sixteen block sums add up to the sum over the whole arrays.

  The region finds pred and target reshaped to [16384, 512]; point n's windows hold rows n·1024 … n·1024 + 1023
  of each. So the sum over the 16 points of the block sums is the sum over all rows and lanes of the reshaped
  arrays, which is the sum over all entries of pred and target themselves. The first eight points' sums and
  the last eight's together are all sixteen.
-/
import proofs.«174891_j81956565942483_2_alg».proof.Proof.Fold
import proofs.«174891_j81956565942483_2_alg».proof.Proof.Totals
import Idealize.ShloMosaic.Lib.StableHlo.Run

set_option maxRecDepth 16384

noncomputable section

namespace Cert.KernelIdeal.KernelTotal

open Idealize.ShloMosaic Idealize.ShloMosaic.TcCoe Idealize.SL.Sem Idealize.ShloMosaic.ValueIdx
open Cert.KernelIdeal Cert.KernelIdeal.Gen Cert.KernelIdeal.Fold

section AnyF

variable {F : FTy → Type} [FloatOps F]
variable (m : (ℓ : Loc nD τ sig) → Buf (Elt F) ℓ)

/-- Both input windows' block index at point t is (t, 0) (decided over the grid). -/
theorem idx_in : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0)

/-- The region finds pred reshaped to [16384, 512]. -/
theorem V_v0 (c : Dev nD) : (V m c main_v0 : S16384x512.Idx → Elt F .f32)
    = shapeCast S16384x512 (m ((c : Thread nD τ).loc main_arg0)) shapeCasts_S32x1x512x512_S16384x512 := by
  show StableHlo.after hostOps0 (fun b => m (c, b)) (Proc.devRef .tc main_v0) = _
  after_results
  rfl

/-- The region finds target reshaped to [16384, 512]. -/
theorem V_v1 (c : Dev nD) : (V m c main_v1 : S16384x512.Idx → Elt F .f32)
    = shapeCast S16384x512 (m ((c : Thread nD τ).loc main_arg1)) shapeCasts_S32x1x512x512_S16384x512 := by
  show StableHlo.after hostOps0 (fun b => m (c, b)) (Proc.devRef .tc main_v1) = _
  after_results
  rfl

/-- Entry (a, k) of pred's block at point t is row t·1024 + a, lane k of the reshaped pred. -/
theorem blkP_apply (c : Dev nD) (t : Fin cfg0.N) (a : Fin 1024) (k : Fin 512) (hb : t.val * 1024 + a.val < 16384) :
    blkP m c t (ix2 a k) = V m c main_v0 (ix2 (⟨t.val * 1024 + a.val, hb⟩ : Fin 16384) k) := by
  unfold blkP iblk
  rw [View.read_apply]
  show V m c main_v0 _ = V m c main_v0 _
  congr 1
  funext ax; apply Fin.ext
  match ax with
  | ⟨0, _⟩ => show win0_0.index t 0 * 1024 + 1 * a.val = t.val * 1024 + a.val; rw [(idx_in t).1]; omega
  | ⟨1, _⟩ => show win0_0.index t 1 * 512 + 1 * k.val = k.val; rw [(idx_in t).2.1]; omega

/-- Entry (a, k) of target's block at point t is row t·1024 + a, lane k of the reshaped target. -/
theorem blkT_apply (c : Dev nD) (t : Fin cfg0.N) (a : Fin 1024) (k : Fin 512) (hb : t.val * 1024 + a.val < 16384) :
    blkT m c t (ix2 a k) = V m c main_v1 (ix2 (⟨t.val * 1024 + a.val, hb⟩ : Fin 16384) k) := by
  unfold blkT iblk
  rw [View.read_apply]
  show V m c main_v1 _ = V m c main_v1 _
  congr 1
  funext ax; apply Fin.ext
  match ax with
  | ⟨0, _⟩ => show win0_1.index t 0 * 1024 + 1 * a.val = t.val * 1024 + a.val; rw [(idx_in t).2.2.1]; omega
  | ⟨1, _⟩ => show win0_1.index t 1 * 512 + 1 * k.val = k.val; rw [(idx_in t).2.2.2]; omega

end AnyF

variable (m : (ℓ : Loc nD τ sig) → Buf (Elt Ideal) ℓ)

/-- Point n's block sum, over the reshaped arrays' rows n·1024 … n·1024 + 1023. -/
theorem ptSum_eq (f : EReal → EReal → EReal) (c : Dev nD) (n : Fin 16) :
    ptSum m f c n.val = ∑ a : Fin 1024, ∑ k : Fin 512,
      f (V m c main_v0 (ix2 (⟨n.val * 1024 + a.val, by have := n.isLt; have := a.isLt; omega⟩ : Fin 16384) k))
        (V m c main_v1 (ix2 (⟨n.val * 1024 + a.val, by have := n.isLt; have := a.isLt; omega⟩ : Fin 16384) k)) := by
  have hn : n.val < cfg0.N := lt_of_lt_of_eq n.isLt N_0.symm
  unfold ptSum
  rw [dif_pos hn]
  unfold Dice.blockSum
  refine Finset.sum_congr rfl fun a _ => Finset.sum_congr rfl fun k _ => ?_
  rw [blkP_apply m c ⟨n.val, hn⟩ a k (by have := n.isLt; have := a.isLt; dsimp only; omega),
    blkT_apply m c ⟨n.val, hn⟩ a k (by have := n.isLt; have := a.isLt; dsimp only; omega)]

/-- The sixteen points' block sums add up to the sum over all entries of pred and target. -/
theorem sum16 (f : EReal → EReal → EReal) (c : Dev nD) :
    ∑ n ∈ Finset.range 16, ptSum m f c n
      = Dice.total f (m ((c : Thread nD τ).loc main_arg0)) (m ((c : Thread nD τ).loc main_arg1)) := by
  rw [Finset.sum_range]
  refine (Finset.sum_congr rfl fun n _ => ptSum_eq m f c n).trans ?_
  refine (Dice.Regroup.sum_blocks_lanes (fun y => f (V m c main_v0 y) (V m c main_v1 y))).trans ?_
  show Dice.total f (V m c main_v0) (V m c main_v1) = _
  rw [V_v0, V_v1]
  exact Dice.total_shapeCast _ f _ _

/-- The first core's eight points and the second core's eight points together: all sixteen. -/
theorem two_runs (f : EReal → EReal → EReal) (c : Dev nD) :
    (0 + ∑ s ∈ Finset.range 8, ptSum m f c (8 * 0 + s)) + (0 + ∑ s ∈ Finset.range 8, ptSum m f c (8 * 1 + s))
      = 0 + Dice.total f (m ((c : Thread nD τ).loc main_arg0)) (m ((c : Thread nD τ).loc main_arg1)) := by
  rw [zero_add, zero_add, zero_add, ← sum16 m f c,
    (Finset.sum_range_add (fun n => ptSum m f c n) 8 8 : ∑ x ∈ Finset.range 16, ptSum m f c x = _)]
  simp only [Nat.mul_zero, Nat.zero_add, Nat.mul_one]

end Cert.KernelIdeal.KernelTotal

end
-- ==== Proof.KernelValue.lean ====
/-
  The kernel program's result at exact arithmetic: the dice loss of the three masked sums over all entries.

  The host tail reads entries (0, k) and (8, k) of the result array — the two cores' accumulators — and adds them;
  each accumulator is 0 + its core's eight block sums, and the sixteen block sums are the sum over all entries.
-/
import proofs.«174891_j81956565942483_2_alg».proof.Proof.KernelRun
import proofs.«174891_j81956565942483_2_alg».proof.Proof.KernelTotal

set_option maxRecDepth 16384

noncomputable section

namespace Cert.KernelIdeal.KernelValue

open Idealize.ShloMosaic Idealize.ShloMosaic.TcCoe Idealize.SL.Sem Idealize.ShloMosaic.ValueIdx
open Cert.KernelIdeal Cert.KernelIdeal.Gen Cert.KernelIdeal.OutArray Cert.KernelIdeal.Fold Cert.KernelIdeal.KernelTotal

/-- The 1×1 slice at (r, k) of a [16, 128] array, reshaped to a scalar, reads entry (r, k). -/
theorem slice_read {α : Type} (O : S16x128.Idx → α) (r : Fin 16) (k : Fin 128) (off : Fin 2 → Nat) (hoff : off = ![r.val, k.val])
    (h : S16x128.Slices off S1x1) (hc : S1x1.ShapeCasts S_) (i : S_.Idx) :
    shapeCast S_ (extractStridedSlice S1x1 off O h) hc i = O (ix2 r k) := by
  subst hoff
  unfold shapeCast
  generalize Shape.reshapeEquiv hc i = j
  refine extractStridedSlice_apply _ O h j (ix2 r k) fun a => ?_
  match a with
  | ⟨0, _⟩ => have := idx2_lt0 j; show r.val = r.val + (j 0).val; omega
  | ⟨1, _⟩ => have := idx2_lt1 j; show k.val = k.val + (j 1).val; omega

/-- The host tail at exact arithmetic: the dice loss of the sums of the two cores' entries. -/
theorem tailOf_apply (O : S16x128.Idx → Ideal .f32) (i : S_.Idx) :
    KernelRun.tailOf (F := Ideal) O i
      = Dice.loss (O (ix2 (0 : Fin 16) (0 : Fin 128)) + O (ix2 (8 : Fin 16) (0 : Fin 128)))
          (O (ix2 (0 : Fin 16) (1 : Fin 128)) + O (ix2 (8 : Fin 16) (1 : Fin 128)))
          (O (ix2 (0 : Fin 16) (2 : Fin 128)) + O (ix2 (8 : Fin 16) (2 : Fin 128))) := by
  have e00 : shapeCast S_ (extractStridedSlice S1x1 ![0, 0] O slices_S16x128_S1x1_0_0) shapeCasts_S1x1_S_ i = O (ix2 (0 : Fin 16) (0 : Fin 128)) :=
    slice_read O 0 0 ![0, 0] rfl slices_S16x128_S1x1_0_0 shapeCasts_S1x1_S_ i
  have e80 : shapeCast S_ (extractStridedSlice S1x1 ![8, 0] O slices_S16x128_S1x1_8_0) shapeCasts_S1x1_S_ i = O (ix2 (8 : Fin 16) (0 : Fin 128)) :=
    slice_read O 8 0 ![8, 0] rfl slices_S16x128_S1x1_8_0 shapeCasts_S1x1_S_ i
  have e01 : shapeCast S_ (extractStridedSlice S1x1 ![0, 1] O slices_S16x128_S1x1_0_1) shapeCasts_S1x1_S_ i = O (ix2 (0 : Fin 16) (1 : Fin 128)) :=
    slice_read O 0 1 ![0, 1] rfl slices_S16x128_S1x1_0_1 shapeCasts_S1x1_S_ i
  have e81 : shapeCast S_ (extractStridedSlice S1x1 ![8, 1] O slices_S16x128_S1x1_8_1) shapeCasts_S1x1_S_ i = O (ix2 (8 : Fin 16) (1 : Fin 128)) :=
    slice_read O 8 1 ![8, 1] rfl slices_S16x128_S1x1_8_1 shapeCasts_S1x1_S_ i
  have e02 : shapeCast S_ (extractStridedSlice S1x1 ![0, 2] O slices_S16x128_S1x1_0_2) shapeCasts_S1x1_S_ i = O (ix2 (0 : Fin 16) (2 : Fin 128)) :=
    slice_read O 0 2 ![0, 2] rfl slices_S16x128_S1x1_0_2 shapeCasts_S1x1_S_ i
  have e82 : shapeCast S_ (extractStridedSlice S1x1 ![8, 2] O slices_S16x128_S1x1_8_2) shapeCasts_S1x1_S_ i = O (ix2 (8 : Fin 16) (2 : Fin 128)) :=
    slice_read O 8 2 ![8, 2] rfl slices_S16x128_S1x1_8_2 shapeCasts_S1x1_S_ i
  unfold KernelRun.tailOf Dice.loss
  show Ideal.ofBits .f32 0x3F800000#32 - Ideal.div (Ideal.ofBits .f32 0x40000000#32 * (_ + _) + Ideal.ofBits .f32 0x3F800000#32)
    (((_ + _) + (_ + _)) + Ideal.ofBits .f32 0x3F800000#32) = _
  rw [e00, e80, e01, e81, e02, e82]

variable (m : (ℓ : Loc nD τ sig) → Buf (Elt Ideal) ℓ)

/-- The kernel program's result is the dice loss of the three masked sums over all entries, each summed from zero. -/
theorem kernel_value (c : Dev nD) (i : S_.Idx) :
    KernelRun.tailOf (F := Ideal) (OUT m c) i
      = Dice.loss (0 + Dice.total Dice.tII (m ((c : Thread nD τ).loc main_arg0)) (m ((c : Thread nD τ).loc main_arg1)))
          (0 + Dice.total Dice.tAA (m ((c : Thread nD τ).loc main_arg0)) (m ((c : Thread nD τ).loc main_arg1)))
          (0 + Dice.total Dice.tBB (m ((c : Thread nD τ).loc main_arg0)) (m ((c : Thread nD τ).loc main_arg1))) := by
  rw [tailOf_apply, (out_row0 m c).1, (out_row0 m c).2.1, (out_row0 m c).2.2, (out_row8 m c).1, (out_row8 m c).2.1, (out_row8 m c).2.2]
  rw [show accII m c 7 t0_7.isLt (ix2 (0 : Fin 1) (0 : Fin 1)) = 0 + ∑ s ∈ Finset.range 8, ptSum m Dice.tII c (8 * 0 + s) from accII_sum m c 0 t0_7.isLt _,
    show accII m c 15 t0_15.isLt (ix2 (0 : Fin 1) (0 : Fin 1)) = 0 + ∑ s ∈ Finset.range 8, ptSum m Dice.tII c (8 * 1 + s) from accII_sum m c 1 t0_15.isLt _,
    show accAA m c 7 t0_7.isLt (ix2 (0 : Fin 1) (0 : Fin 1)) = 0 + ∑ s ∈ Finset.range 8, ptSum m Dice.tAA c (8 * 0 + s) from accAA_sum m c 0 t0_7.isLt _,
    show accAA m c 15 t0_15.isLt (ix2 (0 : Fin 1) (0 : Fin 1)) = 0 + ∑ s ∈ Finset.range 8, ptSum m Dice.tAA c (8 * 1 + s) from accAA_sum m c 1 t0_15.isLt _,
    show accBB m c 7 t0_7.isLt (ix2 (0 : Fin 1) (0 : Fin 1)) = 0 + ∑ s ∈ Finset.range 8, ptSum m Dice.tBB c (8 * 0 + s) from accBB_sum m c 0 t0_7.isLt _,
    show accBB m c 15 t0_15.isLt (ix2 (0 : Fin 1) (0 : Fin 1)) = 0 + ∑ s ∈ Finset.range 8, ptSum m Dice.tBB c (8 * 1 + s) from accBB_sum m c 1 t0_15.isLt _]
  rw [two_runs m Dice.tII c, two_runs m Dice.tAA c, two_runs m Dice.tBB c]

end Cert.KernelIdeal.KernelValue

end
-- ==== Proof.RefValue.lean ====
/-
  The reference, read at exact arithmetic: its result is the dice loss of the three masked sums over all
  entries of (pred, target). The reference flattens both arrays, masks both factors of each product and sums
  from zero; a flattening is a bijection of indices and masking both factors is masking the product.
-/
import proofs.«174891_j81956565942483_2_alg».proof.Proof.Gen.ReferenceIdeal.Read
import proofs.«174891_j81956565942483_2_alg».proof.Proof.Totals

noncomputable section

namespace Cert.ReferenceIdeal.RefValue

open Idealize.ShloMosaic Idealize.ShloMosaic.ValueIdx
open Cert.ReferenceIdeal Cert.ReferenceIdeal.Gen

abbrev Arr := (⟨S32x1x512x512, .f32⟩ : BufTy).Contents (Elt Ideal)

/-- The sum of the reference's pred·target summands is the masked sum of pred·target. -/
theorem sum_v7 (p t : Arr) : ∑ j : S8388608.Idx, Read.val_main_v7 (F := Ideal) p t j = Dice.total Dice.tII p t := by
  refine (Dice.Regroup.sum_shapeCast shapeCasts_S32x1x512x512_S8388608 p t
    (fun a b => (a * Dice.mask b) * (b * Dice.mask b))).trans ?_
  exact Finset.sum_congr rfl fun x _ => Dice.ref_II _ _

/-- The sum of the reference's pred·pred summands is the masked sum of pred·pred. -/
theorem sum_v9 (p t : Arr) : ∑ j : S8388608.Idx, Read.val_main_v9 (F := Ideal) p t j = Dice.total Dice.tAA p t := by
  refine (Dice.Regroup.sum_shapeCast shapeCasts_S32x1x512x512_S8388608 p t
    (fun a b => (a * Dice.mask b) * (a * Dice.mask b))).trans ?_
  exact Finset.sum_congr rfl fun x _ => Dice.ref_AA _ _

/-- The sum of the reference's target·target summands is the masked sum of target·target. -/
theorem sum_v11 (p t : Arr) : ∑ j : S8388608.Idx, Read.val_main_v11 (F := Ideal) t j = Dice.total Dice.tBB p t := by
  refine (Dice.Regroup.sum_shapeCast shapeCasts_S32x1x512x512_S8388608 p t
    (fun a b => (b * Dice.mask b) * (b * Dice.mask b))).trans ?_
  exact Finset.sum_congr rfl fun x _ => Dice.ref_BB _ _

/-- The reference's result is the dice loss of the three masked sums, each summed from zero. -/
theorem ref_value (p t : Arr) (i : S_.Idx) :
    Read.val_main_v18 (F := Ideal) p t i
      = Dice.loss (0 + Dice.total Dice.tII p t) (0 + Dice.total Dice.tAA p t) (0 + Dice.total Dice.tBB p t) := by
  rw [Read.val_main_v18_apply, Read.val_main_v17_apply, Read.val_main_v14_apply, Read.val_main_v16_apply,
    Read.val_main_v13_apply, Read.val_main_v15_apply, Read.val_main_v8_apply, Read.val_main_v10_apply,
    Read.val_main_v12_apply, sum_v7, sum_v9, sum_v11 p t]
  simp only [Read.val_main_cst_0_apply, Read.val_main_cst_1_apply, Read.val_main_cst_2_apply, Read.val_main_cst_3_apply,
    Read.val_main_cst_4_apply, Read.val_main_cst_5_apply, Read.val_main_cst_6_apply, Ideal.ofBits_def, Ideal.subf_def,
    Ideal.hostDivf_def, Ideal.addf_def, Ideal.mulf_def, Ideal.ofBits_zero_f32]
  rfl

end Cert.ReferenceIdeal.RefValue

end
-- ==== Proof.lean ====
/-
  The certificate of the masked dice loss kernel against its jnp reference.

  The loss is 1 - (2·II + 1) / (AA + BB + 1), where, with m(t) = 1 if t > -1 and 0 otherwise,
  II = Σ p·t·m(t), AA = Σ p·p·m(t), BB = Σ t·t·m(t) over all entries (p, t) of (pred, target).

  The kernel reshapes both arrays to [16384, 512] and walks a 2×8 grid of 1024-row blocks; on each core's
  eight points it accumulates the block sums of the three summands (reset at the first point, packed into
  the core's output block at the last), and the host adds the two cores' values and forms the loss. The
  reference flattens both arrays, masks both factors of each product and sums. Over the extended reals:
  a mask value is 0 or 1, so masking both factors is masking the product (no finiteness is used); sums over
  a commutative monoid regroup freely (lanes, rows, blocks, cores; a reshape permutes indices); and the
  final scalar expression is the same on both sides. So the two results are equal.

  The three frame claims are the generated frames (the reference's is its generated run with the result
  dropped); the idealization rewrote nothing, so its claim is trivial.
-/
import proofs.«174891_j81956565942483_2_alg».proof.Defs
import proofs.«174891_j81956565942483_2_alg».proof.Proof.Gen.Kernel
import proofs.«174891_j81956565942483_2_alg».proof.Proof.Gen.Kernel.Skeleton
import proofs.«174891_j81956565942483_2_alg».proof.Proof.Gen.Kernel.Launch
import proofs.«174891_j81956565942483_2_alg».proof.Proof.Gen.Kernel.Points
import proofs.«174891_j81956565942483_2_alg».proof.Proof.Gen.Kernel.Frame
import proofs.«174891_j81956565942483_2_alg».proof.Proof.Gen.KernelIdeal
import proofs.«174891_j81956565942483_2_alg».proof.Proof.Gen.KernelIdeal.Skeleton
import proofs.«174891_j81956565942483_2_alg».proof.Proof.Gen.KernelIdeal.Launch
import proofs.«174891_j81956565942483_2_alg».proof.Proof.Gen.KernelIdeal.Points
import proofs.«174891_j81956565942483_2_alg».proof.Proof.Gen.KernelIdeal.Frame
import proofs.«174891_j81956565942483_2_alg».proof.Proof.Gen.ReferenceIdeal
import proofs.«174891_j81956565942483_2_alg».proof.Proof.Gen.ReferenceIdeal.Run
import proofs.«174891_j81956565942483_2_alg».proof.Proof.Gen.ReferenceIdeal.Read
import proofs.«174891_j81956565942483_2_alg».proof.Proof.Gen.Pre_finite_inputs
import proofs.«174891_j81956565942483_2_alg».proof.Proof.KernelValue
import proofs.«174891_j81956565942483_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the dice loss of the three masked sums over all entries of arguments that agree. -/
theorem algebraic : Cert.algebraic_KernelIdeal_ReferenceIdeal := by
  intro m ρ m' ρ' _ hagree
  refine ⟨fun c => Cert.KernelIdeal.KernelRun.tailOf (Cert.KernelIdeal.OutArray.OUT m c),
    Cert.KernelIdeal.KernelRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq]
  funext i
  rw [Cert.ReferenceIdeal.RefValue.ref_value, (hagree c).1, (hagree c).2]
  exact (Cert.KernelIdeal.KernelValue.kernel_value m c i).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
